-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024x1024 : Shape := ⟨2, ![1024, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  reducesTo_S_S_d : S_.ReducesTo [] S_

variable [Facts]

def fn_part1 {F : FTy → Type} [FloatOps F] (main_arg4 : FVec F S_ .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S_ .f32 := Host.absf main_arg4
  let main_cst_6 : FVec F S_ .f32 := constant S_ .f32 0x7F800000#32
  let main_v19 : IVec S_ 1 := cmpf .olt main_v18 main_cst_6
  let main_c_7 : IVec S_ 1 := constantI S_ 1 1#1
  let main_v20 : IVec S_ 1 := (fun x v => Host.reduce IntOp.andi x v reducesTo_S_S_d h_S_) main_v19 main_c_7
  let main_v21 : IVec S_ 1 := andi main_v17 main_v20
  main_v21

def fn {F : FTy → Type} [FloatOps F] (main_arg0 : FVec F S4x8192x1024 .f32) (main_arg1 : FVec F S1024x1024 .f32) (main_arg2 : FVec F S1024 .f32) (main_arg3 : FVec F S_ .f32) (main_arg4 : FVec F S_ .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg4 main_v13 main_v15 main_c_5
-- ==== Kernel.lean ====
abbrev S4x8192x1024 : Shape := ⟨3, ![4, 8192, 1024]⟩
abbrev S1024x1024 : Shape := ⟨2, ![1024, 1024]⟩
abbrev S1024 : Shape := ⟨1, ![1024]⟩
abbrev S_ : Shape := ⟨0, ![]⟩
abbrev S32768x1024 : Shape := ⟨2, ![32768, 1024]⟩
abbrev S1x1024 : Shape := ⟨2, ![1, 1024]⟩

abbrev nBuf : Space → Nat
  | .hbm => 23
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S_, .f32⟩
  | .hbm, ⟨5, _⟩ => ⟨S32768x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .bf16⟩
  | .hbm, ⟨20, _⟩ => ⟨S1x1024, .f32⟩
  | .hbm, ⟨21, _⟩ => ⟨S32768x1024, .f32⟩
  | .hbm, ⟨22, _⟩ => ⟨S4x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x8192x1024_S32768x1024 : S4x8192x1024.ShapeCasts S32768x1024
  bcast_S_S1024x1024 : S_.BroadcastsInDim S1024x1024 (![] : Fin 0 → Fin S1024x1024.rank)
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S32768x1024_S4x8192x1024 : S32768x1024.ShapeCasts S4x8192x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S1024x1024 : Shape := ⟨2, ![1024, 1024]⟩
abbrev S1024 : Shape := ⟨1, ![1024]⟩
abbrev S_ : Shape := ⟨0, ![]⟩
abbrev S1x1x1024 : Shape := ⟨3, ![1, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  dot_S4x8192x1024_S1024x1024_S4x8192x1024_2_1_01_0_n_n_wf : DotDims.WF S4x8192x1024 S1024x1024 S4x8192x1024 [2] [1] [0, 1] [0] [] []

variable [Facts₀]

def dot_S4x8192x1024_S1024x1024_S4x8192x1024_2_1_01_0_n_n : DotDims S4x8192x1024 S1024x1024 S4x8192x1024 where
  lhsContracting := [2]
  rhsContracting := [1]
  lhsNonContracting := [0, 1]
  rhsNonContracting := [0]
  lhsBatch := []
  rhsBatch := []
  wf := dot_S4x8192x1024_S1024x1024_S4x8192x1024_2_1_01_0_n_n_wf

class Facts : Prop extends Facts₀ where

variable [Facts]
-- ==== Proof.LibPlainProduct.lean ====
/-
  A rows-by-columns matrix product, read at an index, at the ideal values.

  An M×K matrix times a K×P matrix, contracting the left operand's columns with the right operand's rows and with no batch
  axis. A kernel computes it on the matrix unit, accumulating into a splat of zeros; a host program computes it as a
  `dot_general`. At the ideal values both, read at (r, c), are the plain sum over k of lhs(r, k) · rhs(k, c): no rounding, no
  chunk order, and the zero accumulator adds nothing. So the two spellings of a dense layer meet at this sum, term by term.
-/
import Idealize.ShloMosaic.Lib.ValueIdx
import Idealize.ShloMosaic.PureOps.Ideal.Laws

noncomputable section

namespace PlainProduct

open Idealize.ShloMosaic Idealize.ShloMosaic.ValueIdx

variable {M K P : Nat}

/-- The dimension numbers of an M×K by K×P product. -/
abbrev plainDims (M K P : Nat)
    (wf : DotDims.WF (⟨2, ![M, K]⟩ : Shape) ⟨2, ![K, P]⟩ ⟨2, ![M, P]⟩ [1] [0] [0] [1] [] []) :
    DotDims ⟨2, ![M, K]⟩ ⟨2, ![K, P]⟩ ⟨2, ![M, P]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, P]⟩ ⟨2, ![M, P]⟩ [1] [0] [0] [1] [] [])

/-- The sum over the contraction index is the sum over k of lhs(r, k) · rhs(k, c). -/
theorem contr_sum (lhs : (⟨2, ![M, K]⟩ : Shape).Idx → EReal) (rhs : (⟨2, ![K, P]⟩ : Shape).Idx → EReal) (r : Fin M) (c : Fin P) :
    ∑ q : (plainDims M K P wf).contr.Idx,
        lhs ((plainDims M K P wf).lhsIdx (ix2 r c) q) * rhs ((plainDims M K P wf).rhsIdx (ix2 r c) q)
      = ∑ k : Fin K, lhs (ix2 r k) * rhs (ix2 k c) := by
  rw [← Equiv.sum_comp (contrEquiv1 (plainDims M K P wf) K rfl rfl).symm]
  refine Finset.sum_congr rfl fun k _ => ?_
  have hl : (plainDims M K P wf).lhsIdx (ix2 r c) ((contrEquiv1 (plainDims M K P wf) K rfl rfl).symm k) = ix2 r k := by
    funext a
    refine Fin.ext ?_
    match a with
    | ⟨0, _⟩ => rfl
    | ⟨1, _⟩ =>
      exact (DotDims.lhsIdx_val_of_single (d := plainDims M K P wf) (cl := (1 : Fin 2)) rfl (ix2 r c) _).trans
        (contrEquiv1_symm_val (plainDims M K P wf) K rfl rfl k)
  have hr : (plainDims M K P wf).rhsIdx (ix2 r c) ((contrEquiv1 (plainDims M K P wf) K rfl rfl).symm k) = ix2 k c := by
    funext a
    refine Fin.ext ?_
    match a with
    | ⟨0, _⟩ =>
      exact (DotDims.rhsIdx_val_of_single (d := plainDims M K P wf) (cr := (0 : Fin 2)) rfl (ix2 r c) _).trans
        (contrEquiv1_symm_val (plainDims M K P wf) K rfl rfl k)
    | ⟨1, _⟩ => rfl
  rw [hl, hr]

/-- THE KERNEL'S PRODUCT, accumulated into a splat of zeros, READ AT (r, c). -/
theorem matmul_zero_apply {φ₁ φ₂ : FTy} (prec : Option ContractPrecision) (lhs : FVec Ideal ⟨2, ![M, K]⟩ φ₁)
    (rhs : FVec Ideal ⟨2, ![K, P]⟩ φ₂) (r : Fin M) (c : Fin P) :
    matmul (plainDims M K P wf) prec lhs rhs (constant ⟨2, ![M, P]⟩ .f32 0x00000000#32) (ix2 r c)
      = ∑ k : Fin K, lhs (ix2 r k) * rhs (ix2 k c) :=
  (Ideal.matmul_constant_zero_apply (plainDims M K P wf) prec lhs rhs (ix2 r c)).trans (contr_sum wf lhs rhs r c)

/-- THE HOST'S PRODUCT READ AT (r, c). -/
theorem dotGeneral_apply {φ₁ φ₂ : FTy} (prec : Option ContractPrecision) (lhs : FVec Ideal ⟨2, ![M, K]⟩ φ₁)
    (rhs : FVec Ideal ⟨2, ![K, P]⟩ φ₂) (r : Fin M) (c : Fin P) :
    Host.dotGeneral (plainDims M K P wf) prec lhs rhs (ix2 r c) = ∑ k : Fin K, lhs (ix2 r k) * rhs (ix2 k c) :=
  (Ideal.dotGeneral_apply (plainDims M K P wf) prec .single lhs rhs (ix2 r c)).trans (contr_sum wf lhs rhs r c)

end PlainProduct

end
-- ==== Proof.Payload.lean ====
/-
  The kernel body's arithmetic at one element of its output block.

  At a grid point the body holds a [1024, 1024] block of activation rows x0, the whole [in, out] weight x1 and the
  bias row x2 of shape [1, 1024]. It multiplies x0 by x1 on the matrix unit into an accumulator of zeros and adds the
  bias row laid over every row. On extended reals the change of float format of x0 is the identity and the zero
  accumulator adds nothing, so the element at (r, c) is

      sum over k of x0(r, k) · x1(k, c)   +   x2(0, c).
-/
import proofs.«162900_j49838800503279_2_alg».proof.Proof.Gen.KernelIdeal.Skeleton
import proofs.«162900_j49838800503279_2_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-- The body's stored value at (r, c): the row r of the block against column c of the weight, plus the bias at c. -/
theorem pay_apply (x0 : Vec Ideal S1024x1024 .f32) (x1 : Vec Ideal S1024x1024 .bf16) (x2 : Vec Ideal S1x1024 .f32)
    (r c : Fin 1024) :
    k0_pay1 (F := Ideal) x0 x1 x2 (ix2 r c)
      = (∑ k : Fin 1024, x0 (ix2 r k) * x1 (ix2 k c)) + x2 (ix2 (0 : Fin 1) c) := by
  unfold k0_pay1
  rw [addf_apply, shapeCast_self, shapeCast_self, shapeCast_self, broadcastTo_1b_ab_apply]
  congr 1
  exact PlainProduct.matmul_zero_apply (M := 1024) (K := 1024) (P := 1024)
    Facts₀.dot_S1024x1024_S1024x1024_S1024x1024_1_0_0_1_n_n_wf none _ x1 r c

end Cert.KernelIdeal.Body

end
-- ==== Proof.Spec.lean ====
/-
  The layer both programs compute, as one function of the arrays.

  The activations x have shape [4, 8192, 1024], the softened binary weight W has shape [1024, 1024] laid out
  [out, in], and the bias has shape [1024]. The layer's result at (b, s, o) is

      sum over k of x(b, s, k) · W(o, k)   +   bias(o).

  One program reaches it through the rows of the flattened activations: row b·8192 + s of a [32768, 1024] matrix
  times the transposed weight, plus the bias as a [1, 1024] row laid over every row of the result; the flattened
  result is then folded back to [4, 8192, 1024]. `denseRows` is that flat form, and `dense_of_rows` says that folding
  it back gives `dense`: the row-major position of (b, s, o) in [4, 8192, 1024] is that of (b·8192 + s, o) in
  [32768, 1024], the transposed weight at (k, o) is W(o, k), and the bias row at (0, o) is bias(o). Nothing here
  uses more of the extended reals than that equal terms are equal: the two sums have the same summands.
-/
import Idealize.ShloMosaic.Lib.ValueIdx
import Idealize.ShloMosaic.Lib.ValueLayout
import Idealize.ShloMosaic.PureOps.Ideal

noncomputable section

namespace BinaryLinear

open Idealize.ShloMosaic Idealize.ShloMosaic.ValueIdx

/-- The layer at (b, s, o): the row x(b, s, ·) against the weight's row W(o, ·), plus bias(o). -/
def dense (x : FVec Ideal ⟨3, ![4, 8192, 1024]⟩ .f32) (W : FVec Ideal ⟨2, ![1024, 1024]⟩ .f32)
    (bias : FVec Ideal ⟨1, ![1024]⟩ .f32) : FVec Ideal ⟨3, ![4, 8192, 1024]⟩ .f32 :=
  fun i => (∑ k : Fin 1024, x (ix3 (i 0) (i 1) k) * W (ix2 (i 2) k)) + bias (ix1 (i 2))

/-- The softened binary weight aa · min(1, max(−1, kk · w)), spelt with the operations both programs apply to build
    it: the two scalars laid over the matrix, the clamp's bounds the float words of −1 and 1 laid over it likewise.
    Both programs build it by this same sequence, so it is carried whole and never opened. -/
def softBinary (hb : (⟨0, ![]⟩ : Shape).BroadcastsInDim ⟨2, ![1024, 1024]⟩ (![] : Fin 0 → Fin 2))
    (w : FVec Ideal ⟨2, ![1024, 1024]⟩ .f32) (kk aa : FVec Ideal ⟨0, ![]⟩ .f32) : FVec Ideal ⟨2, ![1024, 1024]⟩ .f32 :=
  mulf (broadcastInDim ⟨2, ![1024, 1024]⟩ ![] hb aa)
    (minimumf (broadcastInDim ⟨2, ![1024, 1024]⟩ ![] hb (id (constant (F := Ideal) ⟨0, ![]⟩ .f32 0x3F800000#32)))
      (maximumf (broadcastInDim ⟨2, ![1024, 1024]⟩ ![] hb (id (constant (F := Ideal) ⟨0, ![]⟩ .f32 0xBF800000#32)))
        (mulf (broadcastInDim ⟨2, ![1024, 1024]⟩ ![] hb kk) w)))

/-- The flat form at (r, o): row r of the flattened activations against column o of a [in, out] weight, plus the
    bias row at (0, o). -/
def denseRows (X : FVec Ideal ⟨2, ![32768, 1024]⟩ .f32) (Wt : FVec Ideal ⟨2, ![1024, 1024]⟩ .bf16)
    (B : FVec Ideal ⟨2, ![1, 1024]⟩ .f32) : FVec Ideal ⟨2, ![32768, 1024]⟩ .f32 :=
  fun i => (∑ k : Fin 1024, X (ix2 (i 0) k) * Wt (ix2 k (i 1))) + B (ix2 (0 : Fin 1) (i 1))

/-- The row of the flattened activations that holds (b, s, ·). -/
def rowOf (b : Fin 4) (s : Fin 8192) : Fin 32768 := ⟨b.val * 8192 + s.val, by have := b.isLt; have := s.isLt; omega⟩

/-- The flattened activations at (b·8192 + s, k) are the activations at (b, s, k). -/
theorem flatten_apply (x : FVec Ideal ⟨3, ![4, 8192, 1024]⟩ .f32)
    (h : (⟨3, ![4, 8192, 1024]⟩ : Shape).ShapeCasts ⟨2, ![32768, 1024]⟩) (b : Fin 4) (s : Fin 8192) (k : Fin 1024) :
    shapeCast ⟨2, ![32768, 1024]⟩ x h (ix2 (rowOf b s) k) = x (ix3 b s k) :=
  shapeCast_apply x h _ _ (by
    rw [Shape.rowMajor_val_three, Shape.rowMajor_val_two]
    show (b.val * 8192 + s.val) * 1024 + k.val = (b.val * 8192 + s.val) * 1024 + k.val
    rfl)

/-- Folding a [32768, 1024] matrix back, (b, s, o) reads row b·8192 + s at column o. -/
theorem unflatten_apply (Y : FVec Ideal ⟨2, ![32768, 1024]⟩ .f32)
    (h : (⟨2, ![32768, 1024]⟩ : Shape).ShapeCasts ⟨3, ![4, 8192, 1024]⟩) (b : Fin 4) (s : Fin 8192) (o : Fin 1024) :
    shapeCast ⟨3, ![4, 8192, 1024]⟩ Y h (ix3 b s o) = Y (ix2 (rowOf b s) o) :=
  shapeCast_apply Y h _ _ (by
    rw [Shape.rowMajor_val_three, Shape.rowMajor_val_two]
    show (b.val * 8192 + s.val) * 1024 + o.val = (b.val * 8192 + s.val) * 1024 + o.val
    rfl)

/-- THE TWO FORMS AGREE: the flat form of the flattened activations, the transposed weight (its change of float
    format the identity on extended reals) and the bias as a row, folded back, is the layer. -/
theorem dense_of_rows (x : FVec Ideal ⟨3, ![4, 8192, 1024]⟩ .f32) (W : FVec Ideal ⟨2, ![1024, 1024]⟩ .f32)
    (bias : FVec Ideal ⟨1, ![1024]⟩ .f32)
    (hx : (⟨3, ![4, 8192, 1024]⟩ : Shape).ShapeCasts ⟨2, ![32768, 1024]⟩)
    (hT : (⟨2, ![1024, 1024]⟩ : Shape).Transposes [1, 0] ⟨2, ![1024, 1024]⟩)
    (hlt : FTy.bits .bf16 < FTy.bits .f32)
    (hb : (⟨1, ![1024]⟩ : Shape).ShapeCasts ⟨2, ![1, 1024]⟩)
    (hy : (⟨2, ![32768, 1024]⟩ : Shape).ShapeCasts ⟨3, ![4, 8192, 1024]⟩) :
    shapeCast ⟨3, ![4, 8192, 1024]⟩
        (denseRows (shapeCast ⟨2, ![32768, 1024]⟩ x hx)
          (truncf .bf16 (transpose ⟨2, ![1024, 1024]⟩ [1, 0] W hT) hlt)
          (shapeCast ⟨2, ![1, 1024]⟩ bias hb)) hy
      = dense x W bias := by
  funext i
  obtain ⟨b, s, o, rfl⟩ : ∃ (b : Fin 4) (s : Fin 8192) (o : Fin 1024), i = ix3 b s o := ⟨i 0, i 1, i 2, eq_ix3 i⟩
  rw [unflatten_apply]
  show (∑ k : Fin 1024, shapeCast ⟨2, ![32768, 1024]⟩ x hx (ix2 (rowOf b s) k)
          * (transpose ⟨2, ![1024, 1024]⟩ [1, 0] W hT) (ix2 k o))
        + shapeCast ⟨2, ![1, 1024]⟩ bias hb (ix2 (0 : Fin 1) o)
      = (∑ k : Fin 1024, x (ix3 b s k) * W (ix2 o k)) + bias (ix1 o)
  rw [shapeCast_a_1a_apply]
  congr 1
  refine Finset.sum_congr rfl fun k _ => ?_
  rw [flatten_apply, transpose_ix2_apply]

end BinaryLinear

end
-- ==== Proof.Region.lean ====
/-
  What the kernel's launch leaves in its output array.

  The grid has 32 points. Point t holds rows 1024·t … 1024·t + 1023 of the flattened activations, the whole [in, out]
  weight and the whole bias row, and writes rows 1024·t … 1024·t + 1023 of the [32768, 1024] result. By the body's
  arithmetic at an element, what point t writes back is its block of ONE matrix: `denseRows` of the three arrays as the
  region finds them. The 32 row blocks tile the result (row r lies in the block of point r / 1024), so the result array
  ends holding that matrix.
-/
import proofs.«162900_j49838800503279_2_alg».proof.Proof.Gen.KernelIdeal.Frame
import proofs.«162900_j49838800503279_2_alg».proof.Proof.Payload
import proofs.«162900_j49838800503279_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen BinaryLinear

variable (m : (ℓ : Loc nD τ sig) → Buf (Elt Ideal) ℓ) (ρ : Dev nD → PrngReg)

/-- Every access of the body starts at the corner of its buffer. -/
theorem corner : (![0, 0] : Fin 2 → Nat) = fun _ => 0 := funext fun a => by fin_cases a <;> rfl

/-- The block each window holds at point t: the activations' and the result's row block t, the weight's and the bias
    row's only block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's stored value at an element of block n is the flat layer at the element's place in the whole result:
    stated over any block contents that are the rows of X from 1024·n on, the weight Wt and the bias row B. -/
theorem pay_rows (X : FVec Ideal S32768x1024 .f32) (Wt : FVec Ideal S1024x1024 .bf16) (B : FVec Ideal S1x1024 .f32)
    (x0 : Vec Ideal S1024x1024 .f32) (x1 : Vec Ideal S1024x1024 .bf16) (x2 : Vec Ideal S1x1024 .f32) (n : Nat)
    (h0 : ∀ (r k : Fin 1024) (i : S32768x1024.Idx), (i 0).val = n * 1024 + r.val → (i 1).val = k.val → x0 (ix2 r k) = X i)
    (h1 : ∀ y, x1 y = Wt y) (h2 : ∀ y, x2 y = B y)
    (j : S1024x1024.Idx) (i : S32768x1024.Idx) (hi0 : (i 0).val = n * 1024 + (j 0).val) (hi1 : (i 1).val = (j 1).val) :
    k0_pay1 (F := Ideal) x0 x1 x2 j = denseRows X Wt B i := by
  obtain ⟨r, q, rfl⟩ : ∃ (r q : Fin 1024), j = ix2 r q := ⟨j 0, j 1, eq_ix2 j⟩
  have hq : i 1 = q := Fin.ext hi1
  rw [Body.pay_apply]
  unfold denseRows
  rw [hq, h2]
  congr 1
  refine Finset.sum_congr rfl fun k _ => ?_
  rw [h0 r k (ix2 (i 0) k) hi0 rfl, h1]

/-- WHAT POINT t WRITES BACK is its block of the flat layer of the arrays as the region finds them. -/
theorem flushed_eq (c : Dev nD) (t : Fin cfg0.N) :
    (dats m 0 c).flushed 3 t = ((cfg0.win 3).blk t).view.read (Elt Ideal)
      (denseRows (V m c main_v0) (V m c main_v7) (V m c main_v8)) := by
  show (cfg0.win 3).cut (grid0.coords t) ((dats m 0 c).after 3 t) = _
  rw [after0_3]
  unfold out0_3
  rw [View.canon_unit_zero corner]
  simp only [View.ld_unit_zero (S := S1024x1024) corner, View.ld_unit_zero (S := S1x1024) corner]
  obtain ⟨e0, e1, e2, e3, e4, e5, e6, e7⟩ := block_index t
  funext j
  show k0_pay1 (F := Ideal) (iblk m c 0 t) (iblk m c 1 t) (iblk m c 2 t) j
      = denseRows (V m c main_v0) (V m c main_v7) (V m c main_v8) (((cfg0.win 3).blk t).view.emb j)
  refine pay_rows (V m c main_v0) (V m c main_v7) (V m c main_v8) (iblk m c 0 t) (iblk m c 1 t) (iblk m c 2 t) t.val
    ?_ ?_ ?_ j (((cfg0.win 3).blk t).view.emb j) ?_ ?_
  · intro r k i hi0 hi1
    show V m c main_v0 (((cfg0.win 0).blk t).view.emb (ix2 r k)) = V m c main_v0 i
    refine congrArg (V m c main_v0) (funext fun a => Fin.ext ?_)
    match a with
    | ⟨0, _⟩ => show win0_0.index t (0 : Fin 2) * 1024 + 1 * r.val = (i 0).val; rw [e0, hi0]; omega
    | ⟨1, _⟩ => show win0_0.index t (1 : Fin 2) * 1024 + 1 * k.val = (i 1).val; rw [e1, hi1]; omega
  · intro y
    show V m c main_v7 (((cfg0.win 1).blk t).view.emb y) = V m c main_v7 y
    refine congrArg (V m c main_v7) (funext fun a => Fin.ext ?_)
    match a with
    | ⟨0, _⟩ => show win0_1.index t (0 : Fin 2) * 1024 + 1 * (y 0).val = (y 0).val; rw [e2]; omega
    | ⟨1, _⟩ => show win0_1.index t (1 : Fin 2) * 1024 + 1 * (y 1).val = (y 1).val; rw [e3]; omega
  · intro y
    show V m c main_v8 (((cfg0.win 2).blk t).view.emb y) = V m c main_v8 y
    refine congrArg (V m c main_v8) (funext fun a => Fin.ext ?_)
    match a with
    | ⟨0, _⟩ => show win0_2.index t (0 : Fin 2) * 1 + 1 * (y 0).val = (y 0).val; rw [e4]; omega
    | ⟨1, _⟩ => show win0_2.index t (1 : Fin 2) * 1024 + 1 * (y 1).val = (y 1).val; rw [e5]; omega
  · show win0_3.index t (0 : Fin 2) * 1024 + 1 * (j 0).val = t.val * 1024 + (j 0).val
    rw [e6]; omega
  · show win0_3.index t (1 : Fin 2) * 1024 + 1 * (j 1).val = (j 1).val
    rw [e7]; omega

/-- An index of the result is in point t's block iff each coordinate is in the block's range on its axis. -/
theorem mem_block (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v9).slice (win0_3.rect t)).set ↔ _
  rw [View.set_slice_whole, Rect.mem_set_unit]
  exact Iff.rfl

/-- Row r of the result lies in the block of point r / 1024, and every point writes back. -/
theorem covered (i : S32768x1024.Idx) :
    ∃ t : Fin cfg0.N, (cfg0.win 3).flush t = true ∧ i ∈ ((cfg0.win 3).blk t).view.set := by
  have h0 : (i 0).val < 32768 := (i 0).isLt
  have h1 : (i 1).val < 1024 := (i 1).isLt
  have hN : cfg0.N = 32 := N_0
  let t : Fin cfg0.N := ⟨(i 0).val / 1024, by rw [hN]; omega⟩
  have ht : t.val = (i 0).val / 1024 := rfl
  obtain ⟨e0, e1, e2, e3, e4, e5, e6, e7⟩ := block_index t
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    rw [e6, ht]; omega
  | ⟨1, _⟩ =>
    show win0_3.index t (1 : Fin 2) * 1024 ≤ (i 1).val ∧ (i 1).val < win0_3.index t (1 : Fin 2) * 1024 + 1024
    rw [e7]; omega

/-- THE RESULT ARRAY after the grid: the flat layer of the arrays as the region finds them. -/
theorem final (c : Dev nD) :
    (dats m 0 c).arrAt 3 cfg0.N = denseRows (V m c main_v0) (V m c main_v7) (V m c main_v8) :=
  (dats m 0 c).arrAt_eq_of_cover 3 (denseRows (V m c main_v0) (V m c main_v7) (V m c main_v8))
    (fun t _ => flushed_eq m c t) covered

end Cert.KernelIdeal.Region

end
-- ==== Proof.Around.lean ====
/-
  The kernel's whole program: the host lines before the kernel's launch, the launch, the host line after it.

  Before the launch the host flattens the activations to [32768, 1024], builds the softened binary weight, transposes it
  to [in, out] and changes its float format (the identity on extended reals), and turns the bias into a [1, 1024] row.
  The launch leaves the flat layer of those three arrays in its result (the region's own module). After the launch the host
  folds the result back to [4, 8192, 1024]. So the program's result is the layer of the activations, the softened
  binary weight and the bias.
-/
import proofs.«162900_j49838800503279_2_alg».proof.Proof.Gen.KernelIdeal.Frame
import proofs.«162900_j49838800503279_2_alg».proof.Proof.Region
import proofs.«162900_j49838800503279_2_alg».proof.Proof.Spec
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo
open Idealize.ShloMosaic.Pipeline (Dat)

namespace Cert.KernelIdeal.Around

open Cert.KernelIdeal Cert.KernelIdeal.Gen BinaryLinear

variable (m : (ℓ : Loc nD τ sig) → Buf (Elt Ideal) ℓ) (ρ : Dev nD → PrngReg)

/-- The region finds the activations flattened. -/
theorem entry_rows (c : Dev nD) :
    (V m c main_v0 : S32768x1024.Idx → EReal)
      = shapeCast S32768x1024 (m ((c.tc : Thread nD τ).loc main_arg0)) shapeCasts_S4x8192x1024_S32768x1024 := by
  dsimp only [Gen.V, Gen.V0]
  simp only [Gen.hostOps0, Gen.hostOps0_1, Gen.hostOps0_2, List.flatten_cons, List.flatten_nil, List.append_nil,
    List.cons_append, List.nil_append]
  after_results
  rfl

/-- The region finds the softened binary weight transposed to [in, out], its float format changed. -/
theorem entry_weight (c : Dev nD) :
    (V m c main_v7 : S1024x1024.Idx → EReal)
      = truncf .bf16 (transpose S1024x1024 [1, 0]
          (softBinary bcast_S_S1024x1024 (m ((c.tc : Thread nD τ).loc main_arg1)) (m ((c.tc : Thread nD τ).loc main_arg3))
            (m ((c.tc : Thread nD τ).loc main_arg4)))
          transposes_S1024x1024_S1024x1024_1_0) bitsLt_bf16_f32 := by
  dsimp only [Gen.V, Gen.V0]
  simp only [Gen.hostOps0, Gen.hostOps0_1, Gen.hostOps0_2, List.flatten_cons, List.flatten_nil, List.append_nil,
    List.cons_append, List.nil_append]
  after_results
  rfl

/-- The region finds the bias as a row. -/
theorem entry_bias (c : Dev nD) :
    (V m c main_v8 : S1x1024.Idx → EReal)
      = shapeCast S1x1024 (m ((c.tc : Thread nD τ).loc main_arg2)) shapeCasts_S1024_S1x1024 := by
  dsimp only [Gen.V, Gen.V0]
  simp only [Gen.hostOps0, Gen.hostOps0_1, Gen.hostOps0_2, List.flatten_cons, List.flatten_nil, List.append_nil,
    List.cons_append, List.nil_append]
  after_results
  rfl

/-- THE PROGRAM'S RESULT: the launch's output array folded back is the layer of the arguments. -/
theorem result_eq (c : Dev nD) :
    Pipeline.afterTail₀ cfgs (dats m) 0 (V0 m) [hostOps1] c main_v10
      = dense (m ((c.tc : Thread nD τ).loc main_arg0))
          (softBinary bcast_S_S1024x1024 (m ((c.tc : Thread nD τ).loc main_arg1)) (m ((c.tc : Thread nD τ).loc main_arg3))
            (m ((c.tc : Thread nD τ).loc main_arg4)))
          (m ((c.tc : Thread nD τ).loc main_arg2)) := by
  have ew : Pipeline.withArrays (cfgs 0).spec c (V0 m c) (fun w => (dats m 0 c).arrAt w (cfgs 0).N) (Proc.devRef .tc main_v9)
      = denseRows (shapeCast S32768x1024 (m ((c.tc : Thread nD τ).loc main_arg0)) shapeCasts_S4x8192x1024_S32768x1024)
          (truncf .bf16 (transpose S1024x1024 [1, 0]
            (softBinary bcast_S_S1024x1024 (m ((c.tc : Thread nD τ).loc main_arg1)) (m ((c.tc : Thread nD τ).loc main_arg3))
              (m ((c.tc : Thread nD τ).loc main_arg4)))
            transposes_S1024x1024_S1024x1024_1_0) bitsLt_bf16_f32)
          (shapeCast S1x1024 (m ((c.tc : Thread nD τ).loc main_arg2)) shapeCasts_S1024_S1x1024) := by
    refine (Pipeline.withArrays_arr spec0 launch0.win.arr_inj c _ _ 3).trans ((Region.final m c).trans ?_)
    rw [entry_rows, entry_weight, entry_bias]
  unfold Pipeline.afterTail₀
  show StableHlo.after hostOps1 _ (Proc.devRef .tc main_v10) = _
  after_results
  exact (congrArg (fun Y : FVec Ideal S32768x1024 .f32 => shapeCast S4x8192x1024 Y shapeCasts_S32768x1024_S4x8192x1024) ew).trans
    (dense_of_rows _ _ _ shapeCasts_S4x8192x1024_S32768x1024 transposes_S1024x1024_S1024x1024_1_0 bitsLt_bf16_f32
      shapeCasts_S1024_S1x1024 shapeCasts_S32768x1024_S4x8192x1024)

/-- THE RUN, READ: every weakly fair execution ends with the result at the layer of the arguments and the
    arguments unchanged. -/
theorem run : θ_run defs (onTc (τ := τ) (main (F := Ideal))) ⟨m, fun _ => 0, ρ⟩ fun r => ∀ c : Dev nD,
      r.2.mem ((c.tc : Thread nD τ).loc main_v10)
        = dense (m ((c.tc : Thread nD τ).loc main_arg0))
            (softBinary bcast_S_S1024x1024 (m ((c.tc : Thread nD τ).loc main_arg1)) (m ((c.tc : Thread nD τ).loc main_arg3))
              (m ((c.tc : Thread nD τ).loc main_arg4)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v10 (Pipeline.mem_restRefs_of main_v10 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.KernelIdeal.Around

end
-- ==== Proof.RefValue.lean ====
/-
  The reference computes the layer.

  Its result is the host's product of the activations with the softened binary weight, contracting the activations'
  last axis with the weight's last axis, plus the bias laid over every (b, s). Read at (b, s, o) that is the sum over k
  of x(b, s, k) · W(o, k), plus bias(o): `dense`, with W the reference's own weight term left as it is.
-/
import proofs.«162900_j49838800503279_2_alg».proof.Proof.Gen.ReferenceIdeal.Read
import proofs.«162900_j49838800503279_2_alg».proof.Proof.Spec

noncomputable section

namespace Cert.ReferenceIdeal.RefValue

open Idealize.ShloMosaic Idealize.ShloMosaic.ValueIdx Cert.ReferenceIdeal Cert.ReferenceIdeal.Read BinaryLinear

/-- The reference's weight term is the softened binary weight, operation for operation. -/
theorem weight_eq (x1 : (⟨S1024x1024, .f32⟩ : BufTy).Contents (Elt Ideal)) (x3 x4 : (⟨S_, .f32⟩ : BufTy).Contents (Elt Ideal)) :
    val_main_v4 (F := Ideal) x1 x3 x4 = softBinary Facts₀.bcast_S_S1024x1024 x1 x3 x4 := rfl

/-- The reference's result, as a function of its arguments, is the layer of the activations, its weight term and
    the bias. -/
theorem result_eq (x0 : (⟨S4x8192x1024, .f32⟩ : BufTy).Contents (Elt Ideal)) (x1 : (⟨S1024x1024, .f32⟩ : BufTy).Contents (Elt Ideal))
    (x2 : (⟨S1024, .f32⟩ : BufTy).Contents (Elt Ideal)) (x3 x4 : (⟨S_, .f32⟩ : BufTy).Contents (Elt Ideal)) :
    val_main_v8 (F := Ideal) x0 x1 x2 x3 x4 = dense x0 (val_main_v4 (F := Ideal) x1 x3 x4) x2 := by
  funext i
  have el : ∀ k : Fin 1024, lidx_main_v5 i k = ix3 (i 0) (i 1) k := fun k =>
    funext fun a => Fin.ext (by match a with | ⟨0, _⟩ => rfl | ⟨1, _⟩ => rfl | ⟨2, _⟩ => rfl)
  have er : ∀ k : Fin 1024, ridx_main_v5 i k = ix2 (i 2) k := fun k =>
    funext fun a => Fin.ext (by match a with | ⟨0, _⟩ => rfl | ⟨1, _⟩ => rfl)
  have eb : idx_main_v6 (idx_main_v7 i) = ix1 (i 2) :=
    funext fun a => Fin.ext (by match a with | ⟨0, _⟩ => rfl)
  rw [val_main_v8_apply, val_main_v5_apply, val_main_v7_apply, val_main_v6_apply, eb]
  simp only [el, er]
  rfl

end Cert.ReferenceIdeal.RefValue

end
-- ==== Proof.lean ====
/-
  A linear layer over a softened binary weight: the kernel against its reference, on extended reals.

  Both programs take activations x of shape [4, 8192, 1024], a weight w of shape [1024, 1024] laid out [out, in], a bias
  of shape [1024] and two scalars kk and aa, and both first build the softened binary weight
  W = aa · min(1, max(−1, kk · w)) on the host, by the same operations and the same two float words for −1 and 1.

  The reference then contracts the activations' last axis with W's last axis and adds the bias:
      result(b, s, o) = sum over k of x(b, s, k) · W(o, k) + bias(o).
  The kernel flattens the activations to 32768 rows, transposes W, changes its float format (the identity on extended
  reals), and in a grid of 32 points multiplies each block of 1024 rows by the transposed weight on the matrix unit into
  zeros, adds the bias row, and writes the block of the flat result; the flat result is folded back to
  [4, 8192, 1024]. Row b·8192 + s of the flat result at column o is the sum over k of x(b, s, k) · Wᵀ(k, o) + bias(o),
  the same sum with the same summands, so the two results are equal element by element. No law of the extended reals
  beyond that is used, and the inputs' finiteness is never opened.

  The three frames are the generated ones (the reference's is its generated run with the result dropped), and the
  idealization rewrote no operation, so there is nothing to preserve.
-/
import proofs.«162900_j49838800503279_2_alg».proof.Defs
import proofs.«162900_j49838800503279_2_alg».proof.Proof.Gen.Kernel
import proofs.«162900_j49838800503279_2_alg».proof.Proof.Gen.Kernel.Skeleton
import proofs.«162900_j49838800503279_2_alg».proof.Proof.Gen.Kernel.Launch
import proofs.«162900_j49838800503279_2_alg».proof.Proof.Gen.Kernel.Points
import proofs.«162900_j49838800503279_2_alg».proof.Proof.Gen.Kernel.Frame
import proofs.«162900_j49838800503279_2_alg».proof.Proof.Gen.KernelIdeal
import proofs.«162900_j49838800503279_2_alg».proof.Proof.Gen.KernelIdeal.Skeleton
import proofs.«162900_j49838800503279_2_alg».proof.Proof.Gen.KernelIdeal.Launch
import proofs.«162900_j49838800503279_2_alg».proof.Proof.Gen.KernelIdeal.Points
import proofs.«162900_j49838800503279_2_alg».proof.Proof.Gen.KernelIdeal.Frame
import proofs.«162900_j49838800503279_2_alg».proof.Proof.Gen.ReferenceIdeal
import proofs.«162900_j49838800503279_2_alg».proof.Proof.Gen.Pre_finite_inputs
import proofs.«162900_j49838800503279_2_alg».proof.Proof.Gen.ReferenceIdeal.Run
import proofs.«162900_j49838800503279_2_alg».proof.Proof.Gen.ReferenceIdeal.Read
import proofs.«162900_j49838800503279_2_alg».proof.Proof.Around
import proofs.«162900_j49838800503279_2_alg».proof.Proof.RefValue
import Idealize.ShloMosaic.Adequacy
import Idealize.ShloMosaic.Init

noncomputable section

namespace Cert.Proof

open Idealize.ShloMosaic Idealize.SL.Sem BinaryLinear

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the layer of the activations, the softened binary weight and the bias: the kernel by its
    run read through the flat form, the reference by its run read at an index; the arguments agree. -/
theorem algebraic : Cert.algebraic_KernelIdeal_ReferenceIdeal := by
  intro m ρ m' ρ' _ hagree
  refine ⟨_, Cert.KernelIdeal.Around.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    Cert.ReferenceIdeal.RefValue.weight_eq, (hagree c).1, (hagree c).2.1, (hagree c).2.2.1, (hagree c).2.2.2.1,
    (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
